-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S16384x16384 : Shape := ⟨2, ![16384, 16384]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn_part1 {F : FTy → Type} [FloatOps F] (main_v13 : IVec S_ 1) (main_v16 : IVec S16384x16384 1) : IVec S_ 1 :=
  let main_c_5 : IVec S_ 1 := constantI S_ 1 1#1
  let main_v17 : IVec S_ 1 := (fun x v => Host.reduce IntOp.andi x v reducesTo_S16384x16384_S_d0_1 h_S_) main_v16 main_c_5
  let main_v18 : IVec S_ 1 := andi main_v13 main_v17
  main_v18

def fn {F : FTy → Type} [FloatOps F] (main_arg0 : FVec F S16384x4 .f32) (main_arg1 : FVec F S16384x4 .f32) (main_arg2 : FVec F S16384x4 .f32) (main_arg3 : FVec F S16384x16384 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  let main_v4 : FVec F S16384x4 .f32 := Host.absf main_arg1
  let main_cst_0 : FVec F S_ .f32 := constant S_ .f32 0x7F800000#32
  let main_v5 : FVec F S16384x4 .f32 := broadcastInDim S16384x4 ![] bcast_S_S16384x4 main_cst_0
  let main_v6 : IVec S16384x4 1 := cmpf .olt main_v4 main_v5
  let main_c_1 : IVec S_ 1 := constantI S_ 1 1#1
  let main_v7 : IVec S_ 1 := (fun x v => Host.reduce IntOp.andi x v reducesTo_S16384x4_S_d0_1 h_S_) main_v6 main_c_1
  let main_v8 : IVec S_ 1 := andi main_v3 main_v7
  let main_v9 : FVec F S16384x4 .f32 := Host.absf main_arg2
  let main_cst_2 : FVec F S_ .f32 := constant S_ .f32 0x7F800000#32
  let main_v10 : FVec F S16384x4 .f32 := broadcastInDim S16384x4 ![] bcast_S_S16384x4 main_cst_2
  let main_v11 : IVec S16384x4 1 := cmpf .olt main_v9 main_v10
  let main_c_3 : IVec S_ 1 := constantI S_ 1 1#1
  let main_v12 : IVec S_ 1 := (fun x v => Host.reduce IntOp.andi x v reducesTo_S16384x4_S_d0_1 h_S_) main_v11 main_c_3
  let main_v13 : IVec S_ 1 := andi main_v8 main_v12
  let main_v14 : FVec F S16384x16384 .f32 := Host.absf main_arg3
  let main_cst_4 : FVec F S_ .f32 := constant S_ .f32 0x7F800000#32
  let main_v15 : FVec F S16384x16384 .f32 := broadcastInDim S16384x16384 ![] bcast_S_S16384x16384 main_cst_4
  let main_v16 : IVec S16384x16384 1 := cmpf .olt main_v14 main_v15
  fn_part1 (F := F) main_v13 main_v16
-- ==== Kernel.lean ====
abbrev S16384x4 : Shape := ⟨2, ![16384, 4]⟩
abbrev S16384x16384 : Shape := ⟨2, ![16384, 16384]⟩
abbrev S4x16384 : Shape := ⟨2, ![4, 16384]⟩
abbrev S2x4x16384 : Shape := ⟨3, ![2, 4, 16384]⟩
abbrev S128x16384 : Shape := ⟨2, ![128, 16384]⟩
abbrev S4x128 : Shape := ⟨2, ![4, 128]⟩
abbrev S1x4x16384 : Shape := ⟨3, ![1, 4, 16384]⟩

abbrev nBuf : Space → Nat
  | .hbm => 15
  | .vmem => 8
  | .smem => 0
  | _ => 0

abbrev bufTy : (tb : Table) → Fin (tcTables nBuf tb) → BufTy
  | .hbm, ⟨0, _⟩ => ⟨S16384x4, .f32⟩
  | .hbm, ⟨1, _⟩ => ⟨S16384x4, .f32⟩
  | .hbm, ⟨2, _⟩ => ⟨S16384x4, .f32⟩
  | .hbm, ⟨3, _⟩ => ⟨S16384x16384, .f32⟩
  | .hbm, ⟨4, _⟩ => ⟨S4x16384, .f32⟩
  | .hbm, ⟨5, _⟩ => ⟨S4x16384, .f32⟩
  | .hbm, ⟨6, _⟩ => ⟨S2x4x16384, .f32⟩
  | .hbm, ⟨7, _⟩ => ⟨S1x4x16384, .f32⟩
  | .hbm, ⟨8, _⟩ => ⟨S4x16384, .f32⟩
  | .hbm, ⟨9, _⟩ => ⟨S1x4x16384, .f32⟩
  | .hbm, ⟨10, _⟩ => ⟨S4x16384, .f32⟩
  | .hbm, ⟨11, _⟩ => ⟨S4x16384, .f32⟩
  | .hbm, ⟨12, _⟩ => ⟨S16384x4, .f32⟩
  | .hbm, ⟨13, _⟩ => ⟨S16384x4, .f32⟩
  | .hbm, ⟨14, _⟩ => ⟨S16384x4, .f32⟩
  | .local _ .vmem, ⟨0, _⟩ => ⟨S128x16384, .f32⟩
  | .local _ .vmem, ⟨1, _⟩ => ⟨S128x16384, .f32⟩
  | .local _ .vmem, ⟨2, _⟩ => ⟨S4x16384, .f32⟩
  | .local _ .vmem, ⟨3, _⟩ => ⟨S4x128, .f32⟩
  | .local _ .vmem, ⟨4, _⟩ => ⟨S4x128, .f32⟩
  | .local _ .vmem, ⟨5, _⟩ => ⟨S1x4x16384, .f32⟩
  | .local _ .vmem, ⟨6, _⟩ => ⟨S1x4x16384, .f32⟩
  | .local _ .vmem, ⟨7, _⟩ => ⟨S4x16384, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v21 : BitVec 1 := Scalar.cmpi .eq arg1 c63_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16384x4_S4x16384_1_0 : S16384x4.Transposes [1, 0] S4x16384
  inb_S4x16384_S4x16384_0_0 : ∀ a, (![0, 0] : Fin 2 → Nat) a + S4x16384.size a ≤ S4x16384.size a
  h_S4x16384 : 0 < S4x16384.numel
  shapeCasts_S4x16384_S4x16384 : S4x16384.ShapeCasts S4x16384
  inb_S128x16384_S128x16384_0_0 : ∀ a, (![0, 0] : Fin 2 → Nat) a + S128x16384.size a ≤ S128x16384.size a
  h_S128x16384 : 0 < S128x16384.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x4x16384_S1x4x16384_0_0_0 : ∀ a, (![0, 0, 0] : Fin 3 → Nat) a + S1x4x16384.size a ≤ S1x4x16384.size a
  h_S1x4x16384 : 0 < S1x4x16384.numel
  shapeCasts_S1x4x16384_S4x16384 : S1x4x16384.ShapeCasts S4x16384
  shapeCasts_S4x16384_S1x4x16384 : S4x16384.ShapeCasts S1x4x16384
  slices_S2x4x16384_S1x4x16384_0_0_0 : S2x4x16384.Slices ![0, 0, 0] S1x4x16384
  slices_S2x4x16384_S1x4x16384_1_0_0 : S2x4x16384.Slices ![1, 0, 0] S1x4x16384
  transposes_S4x16384_S16384x4_1_0 : S4x16384.Transposes [1, 0] S16384x4
  dot_S4x16384_S128x16384_S4x128_1_1_0_0_n_n_wf : DotDims.WF S4x16384 S128x16384 S4x128 [1] [1] [0] [0] [] []
  dot_S4x128_S128x16384_S4x16384_1_0_0_1_n_n_wf : DotDims.WF S4x128 S128x16384 S4x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x16384.size a ≤ S4x16384.size a
  hwx0_1 : ∀ i : grid0.Coords, EltTy.bits .f32 = 32 ∨ (Rect.block (s := S4x16384) S4x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x16384.size a
  hwx0_2 : ∀ i : grid0.Coords, EltTy.bits .f32 = 32 ∨ (Rect.block (s := S4x16384) S4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x16384.size a ≤ S2x4x16384.size a
  hwx0_3 : ∀ i : grid0.Coords, EltTy.bits .f32 = 32 ∨ (Rect.block (s := S2x4x16384) S1x4x16384.size (cc0_transform_3 i) (hinb0_3 i)).WholeWords (EltTy.packing .f32)

variable [Facts₀]

def dot_S4x16384_S128x16384_S4x128_1_1_0_0_n_n : DotDims S4x16384 S128x16384 S4x128 where
  lhsContracting := [1]
  rhsContracting := [1]
  lhsNonContracting := [0]
  rhsNonContracting := [0]
  lhsBatch := []
  rhsBatch := []
  wf := dot_S4x16384_S128x16384_S4x128_1_1_0_0_n_n_wf
def dot_S4x128_S128x16384_S4x16384_1_0_0_1_n_n : DotDims S4x128 S128x16384 S4x16384 where
  lhsContracting := [1]
  rhsContracting := [0]
  lhsNonContracting := [0]
  rhsNonContracting := [1]
  lhsBatch := []
  rhsBatch := []
  wf := dot_S4x128_S128x16384_S4x16384_1_0_0_1_n_n_wf

abbrev win0_0 : Pipeline.Window sig grid0 :=
  Pipeline.Window.ofSpec (Memref.whole main_arg3) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4 : Shape := ⟨2, ![16384, 4]⟩
abbrev S16384x16384 : Shape := ⟨2, ![16384, 16384]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S16384x4, .f32⟩
  | .hbm, ⟨2, _⟩ => ⟨S16384x4, .f32⟩
  | .hbm, ⟨3, _⟩ => ⟨S16384x16384, .f32⟩
  | .hbm, ⟨4, _⟩ => ⟨S16384x4, .f32⟩
  | .hbm, ⟨5, _⟩ => ⟨S_, .f32⟩
  | .hbm, ⟨6, _⟩ => ⟨S16384x4, .f32⟩
  | .hbm, ⟨7, _⟩ => ⟨S16384x4, .f32⟩
  | .hbm, ⟨8, _⟩ => ⟨S16384x4, .f32⟩
  | .hbm, ⟨9, _⟩ => ⟨S16384x16384, .f32⟩
  | .hbm, ⟨10, _⟩ => ⟨S16384x4, .f32⟩
  | .hbm, ⟨11, _⟩ => ⟨S16384x4, .f32⟩
  | .hbm, ⟨12, _⟩ => ⟨S16384x4, .f32⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S16384x4 : S_.BroadcastsInDim S16384x4 (![] : Fin 0 → Fin S16384x4.rank)
  transposes_S16384x16384_S16384x16384_1_0 : S16384x16384.Transposes [1, 0] S16384x16384
  dot_S16384x16384_S16384x4_S16384x4_1_0_0_1_n_n_wf : DotDims.WF S16384x16384 S16384x4 S16384x4 [1] [0] [0] [1] [] []

variable [Facts₀]

def dot_S16384x16384_S16384x4_S16384x4_1_0_0_1_n_n : DotDims S16384x16384 S16384x4 S16384x4 where
  lhsContracting := [1]
  rhsContracting := [0]
  lhsNonContracting := [0]
  rhsNonContracting := [1]
  lhsBatch := []
  rhsBatch := []
  wf := dot_S16384x16384_S16384x4_S16384x4_1_0_0_1_n_n_wf

class Facts : Prop extends Facts₀ where

variable [Facts]
-- ==== Proof.Pieces.lean ====
/-
  What the body leaves behind at one grid point, as values of what it loaded.

  At a point that is neither first nor last of its half the body stores once into the carried buffer: the old
  contents plus this block's contribution.  At the first point of a half it first stores zeros and the one later
  store reads those zeros back.  At the last point it also copies the carried buffer, after that store, into the
  output block.
-/
import proofs.«161346_j78348793414179_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the carried buffer ends at the one store's value of the loaded blocks and the old contents. -/
theorem scratch_B (c : Dev nD) (i : grid0.Coords) (arg2 : Memref sig .tc .vmem S128x16384 .f32) (harg2 : arg2.IsWhole) (arg3 : Memref sig .tc .vmem S4x16384 .f32) (harg3 : arg3.IsWhole) (arg4 : Memref sig .tc .vmem S4x128 .f32) (harg4 : arg4.IsWhole) (arg5 : Memref sig .tc .vmem S1x4x16384 .f32) (harg5 : arg5.IsWhole) (arg6 : Memref sig .tc .vmem S4x16384 .f32) (harg6 : arg6.IsWhole) (hc0 : ¬cond0_0 i) (hc1 : ¬cond0_1 i)
    (x0 : Vec F S128x16384 .f32) (x1 : Vec F S4x16384 .f32) (x2 : Vec F S4x128 .f32) (xs0 : Vec F S4x16384 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg4.read_unread, harg6.read_unread,
    View.ld_unit_zero (S := S128x16384) hz2, View.ld_unit_zero (S := S4x16384) hz2, View.ld_unit_zero (S := S4x128) hz2]

/-- A half's first point: zeros are stored first, and the one later store reads them back as the old contents. -/
theorem scratch_A (c : Dev nD) (i : grid0.Coords) (arg2 : Memref sig .tc .vmem S128x16384 .f32) (harg2 : arg2.IsWhole) (arg3 : Memref sig .tc .vmem S4x16384 .f32) (harg3 : arg3.IsWhole) (arg4 : Memref sig .tc .vmem S4x128 .f32) (harg4 : arg4.IsWhole) (arg5 : Memref sig .tc .vmem S1x4x16384 .f32) (harg5 : arg5.IsWhole) (arg6 : Memref sig .tc .vmem S4x16384 .f32) (harg6 : arg6.IsWhole) (hc0 : cond0_0 i) (hc1 : ¬cond0_1 i)
    (x0 : Vec F S128x16384 .f32) (x1 : Vec F S4x16384 .f32) (x2 : Vec F S4x128 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S4x16384) hz2, View.readCov_unit_zero (S := S4x16384) _ hz2]
  simp only [View.readAt_eq_ld, harg2.read_unread, harg3.read_unread, harg4.read_unread, harg6.read_unread,
    View.ld_unit_zero (S := S128x16384) hz2, View.ld_unit_zero (S := S4x16384) hz2, View.ld_unit_zero (S := S4x128) hz2]

/-- A half's last point, the carried buffer: as at a middle point. -/
theorem scratch_C (c : Dev nD) (i : grid0.Coords) (arg2 : Memref sig .tc .vmem S128x16384 .f32) (harg2 : arg2.IsWhole) (arg3 : Memref sig .tc .vmem S4x16384 .f32) (harg3 : arg3.IsWhole) (arg4 : Memref sig .tc .vmem S4x128 .f32) (harg4 : arg4.IsWhole) (arg5 : Memref sig .tc .vmem S1x4x16384 .f32) (harg5 : arg5.IsWhole) (arg6 : Memref sig .tc .vmem S4x16384 .f32) (harg6 : arg6.IsWhole) (hc0 : ¬cond0_0 i) (hc1 : cond0_1 i)
    (x0 : Vec F S128x16384 .f32) (x1 : Vec F S4x16384 .f32) (x2 : Vec F S4x128 .f32) (xs0 : Vec F S4x16384 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S128x16384) hz2, View.ld_unit_zero (S := S4x16384) hz2, View.ld_unit_zero (S := S4x128) hz2]

/-- A half's last point, the output block: the carried buffer after the store, with a leading axis of one. -/
theorem out_C (c : Dev nD) (i : grid0.Coords) (arg2 : Memref sig .tc .vmem S128x16384 .f32) (harg2 : arg2.IsWhole) (arg3 : Memref sig .tc .vmem S4x16384 .f32) (harg3 : arg3.IsWhole) (arg4 : Memref sig .tc .vmem S4x128 .f32) (harg4 : arg4.IsWhole) (arg5 : Memref sig .tc .vmem S1x4x16384 .f32) (harg5 : arg5.IsWhole) (arg6 : Memref sig .tc .vmem S4x16384 .f32) (harg6 : arg6.IsWhole) (hc0 : ¬cond0_0 i) (hc1 : cond0_1 i)
    (x0 : Vec F S128x16384 .f32) (x1 : Vec F S4x16384 .f32) (x2 : Vec F S4x128 .f32) (xs0 : Vec F S4x16384 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S4x16384) _ hz2]
  simp only [View.readAt_eq_ld, harg2.read_unread, harg3.read_unread, harg4.read_unread, harg6.read_unread,
    View.ld_unit_zero (S := S128x16384) hz2, View.ld_unit_zero (S := S4x16384) hz2, View.ld_unit_zero (S := S4x128) hz2]

end Cert.KernelIdeal.Pieces

end
-- ==== Proof.LibBlockedSum.lean ====
/-
  Sums taken block by block.

  A sum over `B * K` consecutive indices is the sum over the `B` blocks of the sums inside each block of `K`
  (`sum_blocks`; the index of position `k` of block `b` is `k + K * b`), and a running total that starts as
  `0 + g 0` and adds `g (n + 1)` at step `n + 1` holds, after step `n`, the sum of `g 0, …, g n` (`running_total`).
  Together (`blocked_total`): a total accumulated one block at a time, from zero, is the whole sum. Everything is
  stated in a commutative additive monoid, so it holds on the extended reals, where no finiteness is needed:
  only commutativity, associativity and `0 + x = x` are used.
-/
import Mathlib.Algebra.BigOperators.Fin
import Mathlib.Algebra.BigOperators.Intervals
import Mathlib.Logic.Equiv.Fin.Basic

namespace Cert.LibBlockedSum

open Finset

variable {M : Type*} [AddCommMonoid M]

/-- The index, among `B * K` consecutive ones, of position `k` inside block `b`: its value is `k + K * b`. -/
abbrev slot (B K : ℕ) (b : Fin B) (k : Fin K) : Fin (B * K) := finProdFinEquiv (b, k)

theorem slot_val (B K : ℕ) (b : Fin B) (k : Fin K) : (slot B K b k).val = k.val + K * b.val := rfl

/-- A sum over `B * K` indices, regrouped as `B` blocks of `K`. -/
theorem sum_blocks (B K : ℕ) (f : Fin (B * K) → M) :
    ∑ i, f i = ∑ b : Fin B, ∑ k : Fin K, f (slot B K b k) := by
  rw [← Equiv.sum_comp (finProdFinEquiv (m := B) (n := K)) f, Fintype.sum_prod_type]

/-- A running total that starts as `0 + g 0` and adds `g (n + 1)` at step `n + 1` is, after step `n`, the sum of
    `g 0, …, g n`. -/
theorem running_total (g a : ℕ → M) (h0 : a 0 = 0 + g 0) (hs : ∀ n, a (n + 1) = a n + g (n + 1)) (n : ℕ) :
    a n = ∑ i ∈ range (n + 1), g i := by
  induction n with
  | zero => rw [h0, zero_add, sum_range_one]
  | succ n ih => rw [hs, ih, sum_range_succ _ (n + 1)]

/-- The same, for steps counted by `Fin B`: after the last of `B` steps the running total is the sum of all `B` terms. -/
theorem running_total_fin (B : ℕ) (g : Fin (B + 1) → M) (a : ℕ → M)
    (h0 : a 0 = 0 + g 0) (hs : ∀ n (h : n + 1 < B + 1), a (n + 1) = a n + g ⟨n + 1, h⟩) :
    a B = ∑ b, g b := by
  have key : ∀ n (h : n < B + 1), a n = ∑ i : Fin (n + 1), g ⟨i.val, lt_of_lt_of_le i.isLt h⟩ := by
    intro n
    induction n with
    | zero => intro h; rw [h0, zero_add, Fin.sum_univ_one]; rfl
    | succ n ih =>
      intro h
      rw [hs n h, ih (Nat.lt_of_succ_lt h), Fin.sum_univ_castSucc (n := n + 1)]
      rfl
  rw [key B (Nat.lt_succ_self B)]

/-- A total accumulated one block at a time from zero is the whole sum: if the running total starts as `0` plus the
    first block's sum and each later step adds that block's sum, then after the last of `B + 1` blocks it is the sum
    over all `(B + 1) * K` indices. -/
theorem blocked_total (B K : ℕ) (f : Fin ((B + 1) * K) → M) (a : ℕ → M)
    (h0 : a 0 = 0 + ∑ k : Fin K, f (slot (B + 1) K 0 k))
    (hs : ∀ n (h : n + 1 < B + 1), a (n + 1) = a n + ∑ k : Fin K, f (slot (B + 1) K ⟨n + 1, h⟩ k)) :
    a B = ∑ i, f i := by
  rw [sum_blocks (B + 1) K f]
  exact running_total_fin B (fun b => ∑ k : Fin K, f (slot (B + 1) K b k)) a h0 hs

end Cert.LibBlockedSum
-- ==== Proof.Spec.lean ====
/-
  One step of a multiplicative reconstruction update, as mathematics over plain index types.

  `M` is a square system matrix (detector rows by voxels), `img`, `eff`, `sinos` have four columns.
  The forward projection of column `j` at detector row `d` is `∑ u, M d u * img u j`; the measured value
  divided by that projection plus a small constant is the `ratio`; its back projection to voxel `v` is
  `∑ d, M d v * ratio d j`; the update multiplies `img v j * eff v j` by it (`update`).

  The other arrangement of the same number takes the detector rows in 128 consecutive blocks of 128, the
  first 64 blocks in one running total and the last 64 in another, each total started from zero and grown by one
  block's partial back projection per step (`acc`), and adds the two totals at the end.  Over the extended reals
  the two arrangements agree because addition is commutative and associative, `0 + x = x`, and multiplication
  is commutative; nothing needs the entries to be finite.
-/
import Idealize.ShloMosaic.PureOps.Ideal
import Idealize.ShloMosaic.Lib.ValueIdx
import proofs.«161346_j78348793414179_2_alg».proof.Proof.LibBlockedSum

noncomputable section

namespace Recon

open Idealize.ShloMosaic Idealize.ShloMosaic.ValueIdx Finset

/-- Detector rows (or voxels) by the four columns. -/
abbrev SNK : Shape := ⟨2, ![16384, 4]⟩
/-- The system matrix's shape. -/
abbrev SNN : Shape := ⟨2, ![16384, 16384]⟩

/-- The small constant added to a projection before dividing by it. -/
abbrev eps : EReal := Ideal.ofBits .f32 0x322BCC77#32

variable (img eff sinos : SNK.Idx → EReal) (M : SNN.Idx → EReal)

/-- Measured over projected, at detector row `d` and column `j`. -/
def ratio (d : Fin 16384) (j : Fin 4) : EReal :=
  Ideal.div (sinos (ix2 d j)) ((∑ u : Fin 16384, M (ix2 d u) * img (ix2 u j)) + eps)

/-- The updated image: `img * eff` times the back projection of the ratio. -/
def update : SNK.Idx → EReal := fun i =>
  (img i * eff i) * ∑ d : Fin 16384, M (ix2 d (i 0)) * ratio img sinos M d (i 1)

/-- The same ratio with the projection's factors in the other order. -/
def ratioT (d : Fin 16384) (j : Fin 4) : EReal :=
  Ideal.div (sinos (ix2 d j)) ((∑ u : Fin 16384, img (ix2 u j) * M (ix2 d u)) + eps)

theorem ratioT_eq (d : Fin 16384) (j : Fin 4) : ratioT img sinos M d j = ratio img sinos M d j := by
  have h : (∑ u : Fin 16384, img (ix2 u j) * M (ix2 d u)) = ∑ u : Fin 16384, M (ix2 d u) * img (ix2 u j) :=
    Finset.sum_congr rfl fun u _ => mul_comm _ _
  unfold ratioT ratio
  rw [h]

/-- Detector row `d`'s share of the back projection to voxel `v`, column `j`. -/
def term (j : Fin 4) (v : Fin 16384) (d : Fin 16384) : EReal :=
  ratioT img sinos M d j * M (ix2 d v)

/-- Row `k` of the `n`-th block of 128 detector rows. -/
abbrev row (n : ℕ) (k : Fin 128) : Fin 16384 := ⟨(128 * n + k.val) % 16384, Nat.mod_lt _ (by norm_num)⟩

/-- Block `n`'s partial back projection. -/
def blockSum (n : ℕ) (j : Fin 4) (v : Fin 16384) : EReal :=
  ∑ k : Fin 128, term img sinos M j v (row n k)

/-- The running total after block `n`: restarted from zero at blocks 0 and 64, grown by one block otherwise. -/
def acc : ℕ → Fin 4 → Fin 16384 → EReal
  | 0 => fun j v => 0 + blockSum img sinos M 0 j v
  | n + 1 => fun j v =>
      if (n + 1) % 64 = 0 then 0 + blockSum img sinos M (n + 1) j v
      else acc n j v + blockSum img sinos M (n + 1) j v

theorem acc_start (n : ℕ) (h : n % 64 = 0) (j : Fin 4) (v : Fin 16384) :
    acc img sinos M n j v = 0 + blockSum img sinos M n j v := by
  cases n with
  | zero => rfl
  | succ n => simp only [acc, if_pos h]

theorem acc_step (n : ℕ) (h : ¬(n + 1) % 64 = 0) (j : Fin 4) (v : Fin 16384) :
    acc img sinos M (n + 1) j v = acc img sinos M n j v + blockSum img sinos M (n + 1) j v := by
  simp only [acc, if_neg h]

/-- Detector row `e` of half `c`. -/
abbrev half (c : Fin 2) (e : Fin (64 * 128)) : Fin 16384 := ⟨e.val + 8192 * c.val, by have := e.isLt; have := c.isLt; omega⟩

/-- After its 64 blocks a half's running total is the sum over the half's 8192 detector rows. -/
theorem acc_half (c : Fin 2) (j : Fin 4) (v : Fin 16384) :
    acc img sinos M (64 * c.val + 63) j v = ∑ e : Fin (64 * 128), term img sinos M j v (half c e) := by
  have hrow : ∀ (n : ℕ) (hn : n < 64) (k : Fin 128),
      row (64 * c.val + n) k = half c (Cert.LibBlockedSum.slot 64 128 ⟨n, hn⟩ k) := by
    intro n hn k
    apply Fin.ext
    show (128 * (64 * c.val + n) + k.val) % 16384 = (Cert.LibBlockedSum.slot 64 128 ⟨n, hn⟩ k).val + 8192 * c.val
    rw [Cert.LibBlockedSum.slot_val]
    have := k.isLt; have := c.isLt
    show (128 * (64 * c.val + n) + k.val) % 16384 = k.val + 128 * n + 8192 * c.val
    omega
  exact Cert.LibBlockedSum.blocked_total 63 128 (fun e => term img sinos M j v (half c e))
    (fun n => acc img sinos M (64 * c.val + n) j v)
    (by
      rw [acc_start img sinos M (64 * c.val + 0) (by omega)]
      unfold blockSum
      exact congrArg (0 + ·) (Finset.sum_congr rfl fun k _ => by rw [hrow 0 (by norm_num) k]; rfl))
    (fun n h => by
      show acc img sinos M (64 * c.val + n + 1) j v = _
      rw [acc_step img sinos M (64 * c.val + n) (by omega)]
      unfold blockSum
      exact congrArg (acc img sinos M (64 * c.val + n) j v + ·)
        (Finset.sum_congr rfl fun k _ => by rw [show 64 * c.val + n + 1 = 64 * c.val + (n + 1) from rfl, hrow (n + 1) h k]))

/-- The two halves' totals add up to the whole back projection, written as in `update`. -/
theorem acc_total (j : Fin 4) (v : Fin 16384) :
    acc img sinos M 63 j v + acc img sinos M 127 j v
      = ∑ d : Fin 16384, M (ix2 d v) * ratio img sinos M d j := by
  have h0 := acc_half img sinos M 0 j v
  have h1 := acc_half img sinos M 1 j v
  rw [show 64 * (0 : Fin 2).val + 63 = 63 from rfl] at h0
  rw [show 64 * (1 : Fin 2).val + 63 = 127 from rfl] at h1
  rw [h0, h1]
  have hs := Cert.LibBlockedSum.sum_blocks 2 (64 * 128) (fun d : Fin (2 * (64 * 128)) => term img sinos M j v ⟨d.val, d.isLt⟩)
  rw [Fin.sum_univ_two] at hs
  have hterm : ∀ d : Fin 16384, term img sinos M j v d = M (ix2 d v) * ratio img sinos M d j := by
    intro d; unfold term; rw [ratioT_eq, mul_comm]
  calc _ = ∑ d : Fin (2 * (64 * 128)), term img sinos M j v ⟨d.val, d.isLt⟩ := by
          rw [hs]; congr 1
    _ = ∑ d : Fin 16384, term img sinos M j v d := rfl
    _ = _ := Finset.sum_congr rfl fun d _ => hterm d

end Recon

end
-- ==== Proof.Payload.lean ====
/-
  The body's stored values read entry by entry over the extended reals.

  The one store into the carried buffer holds, at column `j` and voxel `v`, the old entry plus
  `∑ d, (s j d / (∑ u, x j u * a d u + ε)) * a d v`, where `a` is the block of 128 matrix rows, `x` the transposed
  image and `s` the block's 128 transposed measurements: a change of float format is the identity, and a matrix
  product into a zero accumulator is the plain sum over the contracted axis.
-/
import proofs.«161346_j78348793414179_2_alg».proof.Proof.Gen.KernelIdeal.Skeleton
import proofs.«161346_j78348793414179_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Payload

open Cert.KernelIdeal Cert.KernelIdeal.Gen

/-- The forward product: four image rows against a block's 128 matrix rows, contracted over the voxels. -/
theorem forward_apply (l : FVec Ideal S4x16384 .bf16) (r : FVec Ideal S128x16384 .bf16) (j : Fin 4) (d : Fin 128) :
    matmul dot_S4x16384_S128x16384_S4x128_1_1_0_0_n_n none l r (constant (F := Ideal) S4x128 .f32 0x00000000#32) (ix2 j d)
      = ∑ u : Fin 16384, l (ix2 j u) * r (ix2 d u) := by
  show FloatOps.matmul dot_S4x16384_S128x16384_S4x128_1_1_0_0_n_n none l r (constant (F := Ideal) S4x128 .f32 0x00000000#32) (ix2 j d) = _
  rw [Ideal.matmul_constant_zero_apply, ← Equiv.sum_comp (contrEquiv1 dot_S4x16384_S128x16384_S4x128_1_1_0_0_n_n 16384 rfl rfl).symm]
  refine Finset.sum_congr rfl fun k _ => ?_
  have hk := contrEquiv1_symm_val dot_S4x16384_S128x16384_S4x128_1_1_0_0_n_n 16384 rfl rfl k
  have el : dot_S4x16384_S128x16384_S4x128_1_1_0_0_n_n.lhsIdx (ix2 j d) ((contrEquiv1 dot_S4x16384_S128x16384_S4x128_1_1_0_0_n_n 16384 rfl rfl).symm k) = ix2 j k := funext fun a => Fin.ext (by
    match a with
    | ⟨0, _⟩ =>
      show (dot_S4x16384_S128x16384_S4x128_1_1_0_0_n_n.lhsIdx (ix2 j d) _ 0).val = j.val
      unfold DotDims.lhsIdx
      rw [dif_neg (show ¬(0 : Fin S4x16384.rank) ∈ dot_S4x16384_S128x16384_S4x128_1_1_0_0_n_n.lhsBatch by decide), dif_pos (show (0 : Fin S4x16384.rank) ∈ dot_S4x16384_S128x16384_S4x128_1_1_0_0_n_n.lhsNonContracting by decide)]
      rfl
    | ⟨1, _⟩ => exact (dot_S4x16384_S128x16384_S4x128_1_1_0_0_n_n.lhsIdx_val_of_single rfl (ix2 j d) _).trans hk)
  have er : dot_S4x16384_S128x16384_S4x128_1_1_0_0_n_n.rhsIdx (ix2 j d) ((contrEquiv1 dot_S4x16384_S128x16384_S4x128_1_1_0_0_n_n 16384 rfl rfl).symm k) = ix2 d k := funext fun a => Fin.ext (by
    match a with
    | ⟨0, _⟩ =>
      show (dot_S4x16384_S128x16384_S4x128_1_1_0_0_n_n.rhsIdx (ix2 j d) _ 0).val = d.val
      unfold DotDims.rhsIdx
      rw [dif_neg (show ¬(0 : Fin S128x16384.rank) ∈ dot_S4x16384_S128x16384_S4x128_1_1_0_0_n_n.rhsBatch by decide), dif_pos (show (0 : Fin S128x16384.rank) ∈ dot_S4x16384_S128x16384_S4x128_1_1_0_0_n_n.rhsNonContracting by decide)]
      rfl
    | ⟨1, _⟩ => exact (dot_S4x16384_S128x16384_S4x128_1_1_0_0_n_n.rhsIdx_val_of_single rfl (ix2 j d) _).trans hk)
  rw [el, er]

/-- The backward product: four ratio rows against the same block, contracted over its 128 matrix rows. -/
theorem backward_apply (l : FVec Ideal S4x128 .bf16) (r : FVec Ideal S128x16384 .bf16) (j : Fin 4) (v : Fin 16384) :
    matmul dot_S4x128_S128x16384_S4x16384_1_0_0_1_n_n none l r (constant (F := Ideal) S4x16384 .f32 0x00000000#32) (ix2 j v)
      = ∑ d : Fin 128, l (ix2 j d) * r (ix2 d v) := by
  show FloatOps.matmul dot_S4x128_S128x16384_S4x16384_1_0_0_1_n_n none l r (constant (F := Ideal) S4x16384 .f32 0x00000000#32) (ix2 j v) = _
  rw [Ideal.matmul_constant_zero_apply, ← Equiv.sum_comp (contrEquiv1 dot_S4x128_S128x16384_S4x16384_1_0_0_1_n_n 128 rfl rfl).symm]
  refine Finset.sum_congr rfl fun k _ => ?_
  have hk := contrEquiv1_symm_val dot_S4x128_S128x16384_S4x16384_1_0_0_1_n_n 128 rfl rfl k
  have el : dot_S4x128_S128x16384_S4x16384_1_0_0_1_n_n.lhsIdx (ix2 j v) ((contrEquiv1 dot_S4x128_S128x16384_S4x16384_1_0_0_1_n_n 128 rfl rfl).symm k) = ix2 j k := funext fun a => Fin.ext (by
    match a with
    | ⟨0, _⟩ =>
      show (dot_S4x128_S128x16384_S4x16384_1_0_0_1_n_n.lhsIdx (ix2 j v) _ 0).val = j.val
      unfold DotDims.lhsIdx
      rw [dif_neg (show ¬(0 : Fin S4x128.rank) ∈ dot_S4x128_S128x16384_S4x16384_1_0_0_1_n_n.lhsBatch by decide), dif_pos (show (0 : Fin S4x128.rank) ∈ dot_S4x128_S128x16384_S4x16384_1_0_0_1_n_n.lhsNonContracting by decide)]
      rfl
    | ⟨1, _⟩ => exact (dot_S4x128_S128x16384_S4x16384_1_0_0_1_n_n.lhsIdx_val_of_single rfl (ix2 j v) _).trans hk)
  have er : dot_S4x128_S128x16384_S4x16384_1_0_0_1_n_n.rhsIdx (ix2 j v) ((contrEquiv1 dot_S4x128_S128x16384_S4x16384_1_0_0_1_n_n 128 rfl rfl).symm k) = ix2 k v := funext fun a => Fin.ext (by
    match a with
    | ⟨0, _⟩ => exact (dot_S4x128_S128x16384_S4x16384_1_0_0_1_n_n.rhsIdx_val_of_single rfl (ix2 j v) _).trans hk
    | ⟨1, _⟩ =>
      show (dot_S4x128_S128x16384_S4x16384_1_0_0_1_n_n.rhsIdx (ix2 j v) _ 1).val = v.val
      unfold DotDims.rhsIdx
      rw [dif_neg (show ¬(1 : Fin S128x16384.rank) ∈ dot_S4x128_S128x16384_S4x16384_1_0_0_1_n_n.rhsBatch by decide), dif_pos (show (1 : Fin S128x16384.rank) ∈ dot_S4x128_S128x16384_S4x16384_1_0_0_1_n_n.rhsNonContracting by decide)]
      rfl)
  rw [el, er]

/-- The small constant the body adds to the projection. -/
abbrev eps : EReal := Ideal.ofBits .f32 0x322BCC77#32

/-- The store into the carried buffer, entry by entry. -/
theorem store_apply (a : Vec Ideal S128x16384 .f32) (x : Vec Ideal S4x16384 .f32) (s : Vec Ideal S4x128 .f32)
    (old : Vec Ideal S4x16384 .f32) (j : Fin 4) (v : Fin 16384) :
    k0_pay2 (F := Ideal) a x s old (ix2 j v)
      = old (ix2 j v) + ∑ d : Fin 128,
          Ideal.div (s (ix2 j d)) ((∑ u : Fin 16384, x (ix2 j u) * a (ix2 d u)) + eps) * a (ix2 d v) := by
  unfold k0_pay2
  simp only [shapeCast_self]
  show old (ix2 j v) + matmul dot_S4x128_S128x16384_S4x16384_1_0_0_1_n_n none _ _ (constant (F := Ideal) S4x16384 .f32 0x00000000#32) (ix2 j v) = _
  rw [backward_apply]
  refine congrArg (old (ix2 j v) + ·) (Finset.sum_congr rfl fun d _ => ?_)
  rw [truncf_apply, truncf_apply, divf_apply, addf_apply, forward_apply, broadcast_apply]
  simp only [truncf_apply]
  rw [Ideal.ofBits_def]

/-- One point's store when the loaded blocks are block `n`'s entries of the argument arrays: the old entry plus
    block `n`'s partial back projection. -/
theorem step_apply (img sinos : Recon.SNK.Idx → EReal) (M : Recon.SNN.Idx → EReal) (n : ℕ)
    (a : Vec Ideal S128x16384 .f32) (x : Vec Ideal S4x16384 .f32) (s : Vec Ideal S4x128 .f32) (old : Vec Ideal S4x16384 .f32)
    (ha : ∀ (d : Fin 128) (u : Fin 16384), a (ix2 d u) = M (ix2 (Recon.row n d) u))
    (hx : ∀ (j : Fin 4) (u : Fin 16384), x (ix2 j u) = img (ix2 u j))
    (hs : ∀ (j : Fin 4) (d : Fin 128), s (ix2 j d) = sinos (ix2 (Recon.row n d) j))
    (j : Fin 4) (v : Fin 16384) :
    k0_pay2 (F := Ideal) a x s old (ix2 j v) = old (ix2 j v) + Recon.blockSum img sinos M n j v := by
  rw [store_apply]
  unfold Recon.blockSum Recon.term Recon.ratioT
  simp only [ha, hx, hs]

/-- The zeros stored at a half's first point. -/
theorem zeros_apply (i : S4x16384.Idx) : k0_pay1 (F := Ideal) i = 0 := by
  unfold k0_pay1
  simp only [shapeCast_self]
  show Ideal.ofBits .f32 0x00000000#32 = 0
  exact Ideal.ofBits_zero_f32

/-- The copy into the output block: the carried buffer under a leading axis of extent one. -/
theorem copy_apply (b : Vec Ideal S4x16384 .f32) (u : Fin 1) (j : Fin 4) (v : Fin 16384) :
    k0_pay3 (F := Ideal) b (ix3 u j v) = b (ix2 j v) := by
  unfold k0_pay3
  exact shapeCast_ab_1ab_apply b _ u j v

end Cert.KernelIdeal.Payload

end
-- ==== Proof.Blocks.lean ====
/-
  The three input blocks at a grid point, as entries of the argument arrays.

  Point `t` (of 128, counted in the grid's order) is handed rows `128 t … 128 t + 127` of the system matrix, the
  whole transposed image, and columns `128 t … 128 t + 127` of the transposed measurements.  The two transposes are
  made on the host before the call, so an entry `(j, u)` of a transposed array is entry `(u, j)` of the argument.
-/
import proofs.«161346_j78348793414179_2_alg».proof.Proof.Gen.KernelIdeal.Frame
import proofs.«161346_j78348793414179_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- Where each window's block sits at point `t`: the matrix's row block and the measurements' column block are the
    point's number, the image is one block, the output's block is the half. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 3) = t.val / 64 ∧ win0_3.index t (1 : Fin 3) = 0 ∧ win0_3.index t (2 : Fin 3) = 0 :=
  (by decide +kernel : ∀ t : Fin grid0.N, _)

/-- The transposed image, as the call finds it. -/
theorem V_imgT (c : Dev nD) : (V m c main_v0 : S4x16384.Idx → F .f32)
    = transpose S4x16384 [1, 0] (m ((c : Thread nD τ).loc main_arg0)) transposes_S16384x4_S4x16384_1_0 := by
  show StableHlo.after hostOps0 (fun b => m (c, b)) (Proc.devRef .tc main_v0) = _
  after_results

/-- The transposed measurements, as the call finds them. -/
theorem V_sinosT (c : Dev nD) : (V m c main_v1 : S4x16384.Idx → F .f32)
    = transpose S4x16384 [1, 0] (m ((c : Thread nD τ).loc main_arg2)) transposes_S16384x4_S4x16384_1_0 := by
  show StableHlo.after hostOps0 (fun b => m (c, b)) (Proc.devRef .tc main_v1) = _
  after_results

/-- An entry of a transposed four-column array. -/
theorem transposed_apply (x : S16384x4.Idx → F .f32) (j : Fin 4) (u : Fin 16384) :
    transpose S4x16384 [1, 0] x transposes_S16384x4_S4x16384_1_0 (ix2 j u) = x (ix2 u j) :=
  transpose_apply [1, 0] x transposes_S16384x4_S4x16384_1_0 (ix2 j u) (ix2 u j) (fun b => match b with
    | ⟨0, _⟩ => rfl
    | ⟨1, _⟩ => rfl)

/-- The matrix block at point `t`: rows `128 t + d`. -/
theorem matrix_block (c : Dev nD) (t : Fin cfg0.N) (d : Fin 128) (u : Fin 16384) :
    (iblk m c 0 t : Vec F S128x16384 .f32) (ix2 d u)
      = (m ((c : Thread nD τ).loc main_arg3) : S16384x16384.Idx → F .f32) (ix2 (Recon.row t.val d) u) := by
  obtain ⟨e0, e1, -⟩ := index_facts t
  have hN : t.val < 128 := lt_of_lt_of_eq t.isLt (show cfg0.N = 128 from N_0)
  unfold iblk
  rw [View.read_apply]
  show V m c main_arg3 _ = m (c.tc.loc main_arg3) _
  rw [V_main_arg3]
  refine congrArg _ (funext fun a => Fin.ext ?_)
  match a with
  | ⟨0, _⟩ => show win0_0.index t (0 : Fin 2) * 128 + 1 * d.val = (128 * t.val + d.val) % 16384; rw [e0]; omega
  | ⟨1, _⟩ => show win0_0.index t (1 : Fin 2) * 16384 + 1 * u.val = u.val; rw [e1]; omega

/-- The image block at any point: the whole transposed image. -/
theorem image_block (c : Dev nD) (t : Fin cfg0.N) (j : Fin 4) (u : Fin 16384) :
    (iblk m c 1 t : Vec F S4x16384 .f32) (ix2 j u)
      = (m ((c : Thread nD τ).loc main_arg0) : S16384x4.Idx → F .f32) (ix2 u j) := by
  obtain ⟨-, -, e0, e1, -⟩ := index_facts t
  unfold iblk
  rw [View.read_apply]
  show V m c main_v0 _ = m (c.tc.loc main_arg0) _
  rw [V_imgT, ← transposed_apply (m ((c : Thread nD τ).loc main_arg0)) j u]
  refine congrArg _ (funext fun a => Fin.ext ?_)
  match a with
  | ⟨0, _⟩ => show win0_1.index t (0 : Fin 2) * 4 + 1 * j.val = j.val; rw [e0]; omega
  | ⟨1, _⟩ => show win0_1.index t (1 : Fin 2) * 16384 + 1 * u.val = u.val; rw [e1]; omega

/-- The measurement block at point `t`: detector rows `128 t + d`. -/
theorem sinos_block (c : Dev nD) (t : Fin cfg0.N) (j : Fin 4) (d : Fin 128) :
    (iblk m c 2 t : Vec F S4x128 .f32) (ix2 j d)
      = (m ((c : Thread nD τ).loc main_arg2) : S16384x4.Idx → F .f32) (ix2 (Recon.row t.val d) j) := by
  obtain ⟨-, -, -, -, e0, e1, -⟩ := index_facts t
  have hN : t.val < 128 := lt_of_lt_of_eq t.isLt (show cfg0.N = 128 from N_0)
  unfold iblk
  rw [View.read_apply]
  show V m c main_v1 _ = m (c.tc.loc main_arg2) _
  rw [V_sinosT, ← transposed_apply (m ((c : Thread nD τ).loc main_arg2)) j (Recon.row t.val d)]
  refine congrArg _ (funext fun a => Fin.ext ?_)
  match a with
  | ⟨0, _⟩ => show win0_2.index t (0 : Fin 2) * 4 + 1 * j.val = j.val; rw [e0]; omega
  | ⟨1, _⟩ => show win0_2.index t (1 : Fin 2) * 128 + 1 * d.val = (128 * t.val + d.val) % 16384; rw [e1]; omega

end Cert.KernelIdeal.Blocks

end
-- ==== Proof.Accumulate.lean ====
/-
  The carried buffer after each grid point is the running total of the blocks' partial back projections.

  By induction on the point: a half's first point leaves zero plus its block, every later point the previous
  total plus its block; the last point of a half also copies that total into the output block.
-/
import proofs.«161346_j78348793414179_2_alg».proof.Proof.Pieces
import proofs.«161346_j78348793414179_2_alg».proof.Proof.Payload
import proofs.«161346_j78348793414179_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen

variable (m : (ℓ : Loc nD τ sig) → Buf (Elt Ideal) ℓ)

/-- The image, the measurements and the system matrix on core `c`, as launched. -/
abbrev img (c : Dev nD) : Recon.SNK.Idx → EReal := m ((c : Thread nD τ).loc main_arg0)
abbrev sinos (c : Dev nD) : Recon.SNK.Idx → EReal := m ((c : Thread nD τ).loc main_arg2)
abbrev mat (c : Dev nD) : Recon.SNN.Idx → EReal := m ((c : Thread nD τ).loc main_arg3)

/-- The store at point `t` adds block `t`'s partial back projection to the old entry. -/
theorem point_apply (c : Dev nD) (t : Fin cfg0.N) (old : Vec Ideal S4x16384 .f32) (j : Fin 4) (v : Fin 16384) :
    k0_pay2 (F := Ideal) (iblk m c 0 t) (iblk m c 1 t) (iblk m c 2 t) old (ix2 j v)
      = old (ix2 j v) + Recon.blockSum (img m c) (sinos m c) (mat m c) t.val j v :=
  Payload.step_apply (img m c) (sinos m c) (mat m c) t.val (iblk m c 0 t) (iblk m c 1 t) (iblk m c 2 t) old
    (Blocks.matrix_block m c t) (Blocks.image_block m c t) (Blocks.sinos_block m c t) j v

/-- The carried buffer after a half's first point. -/
theorem scratch_first (c : Dev nD) (n : ℕ) (h : n < cfg0.N) (h0 : n % 64 = 0) (h1 : ¬n % 64 = 63) :
    (outsAt0 m c n h).2
      = k0_pay2 (F := Ideal) (iblk m c 0 ⟨n, h⟩) (iblk m c 1 ⟨n, h⟩) (iblk m c 2 ⟨n, h⟩) (k0_pay1 (F := Ideal)) := by
  rw [outsAt0_A m c ⟨n, h⟩ h0 h1]
  dsimp only
  exact Pieces.scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
    ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- The carried buffer after a middle point. -/
theorem scratch_mid (c : Dev nD) (n : ℕ) (h : n + 1 < cfg0.N) (h0 : ¬(n + 1) % 64 = 0) (h1 : ¬(n + 1) % 64 = 63) :
    (outsAt0 m c (n + 1) h).2
      = k0_pay2 (F := Ideal) (iblk m c 0 ⟨n + 1, h⟩) (iblk m c 1 ⟨n + 1, h⟩) (iblk m c 2 ⟨n + 1, h⟩) (outsAt0 m c n (Nat.lt_of_succ_lt h)).2 := by
  rw [outsAt0_B m c ⟨n + 1, h⟩ h0 h1]
  dsimp only
  exact Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
    (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2

/-- The carried buffer after a half's last point. -/
theorem scratch_last (c : Dev nD) (n : ℕ) (h : n + 1 < cfg0.N) (h0 : ¬(n + 1) % 64 = 0) (h1 : (n + 1) % 64 = 63) :
    (outsAt0 m c (n + 1) h).2
      = k0_pay2 (F := Ideal) (iblk m c 0 ⟨n + 1, h⟩) (iblk m c 1 ⟨n + 1, h⟩) (iblk m c 2 ⟨n + 1, h⟩) (outsAt0 m c n (Nat.lt_of_succ_lt h)).2 := by
  rw [outsAt0_C m c ⟨n + 1, h⟩ h0 h1]
  dsimp only
  exact Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
    (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2

/-- The output block after a half's last point: the carried buffer's new contents under a leading unit axis. -/
theorem out_last (c : Dev nD) (n : ℕ) (h : n + 1 < cfg0.N) (h0 : ¬(n + 1) % 64 = 0) (h1 : (n + 1) % 64 = 63) :
    (outsAt0 m c (n + 1) h).1
      = k0_pay3 (F := Ideal) (k0_pay2 (F := Ideal) (iblk m c 0 ⟨n + 1, h⟩) (iblk m c 1 ⟨n + 1, h⟩) (iblk m c 2 ⟨n + 1, h⟩) (outsAt0 m c n (Nat.lt_of_succ_lt h)).2) := by
  rw [outsAt0_C m c ⟨n + 1, h⟩ h0 h1]
  dsimp only
  exact Pieces.out_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
    (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2

/-- After point `n` the carried buffer holds the running total `Recon.acc … n`. -/
theorem scratch_eq (c : Dev nD) : ∀ (n : ℕ) (h : n < cfg0.N) (j : Fin 4) (v : Fin 16384),
    (outsAt0 m c n h).2 (ix2 j v) = Recon.acc (img m c) (sinos m c) (mat m c) n j v := by
  intro n
  induction n with
  | zero =>
    intro h j v
    rw [scratch_first m c 0 h rfl (by decide), point_apply, Payload.zeros_apply]
    rfl
  | succ n ih =>
    intro h j v
    have hN : n + 1 < 128 := lt_of_lt_of_eq h (show cfg0.N = 128 from N_0)
    by_cases h0 : (n + 1) % 64 = 0
    · rw [scratch_first m c (n + 1) h h0 (by omega), point_apply, Payload.zeros_apply,
        Recon.acc_start _ _ _ (n + 1) h0]
    · by_cases h1 : (n + 1) % 64 = 63
      · rw [scratch_last m c n h h0 h1, point_apply, ih, Recon.acc_step _ _ _ n h0]
      · rw [scratch_mid m c n h h0 h1, point_apply, ih, Recon.acc_step _ _ _ n h0]

/-- The output block written at a half's last point holds that half's finished total. -/
theorem out_eq (c : Dev nD) (n : ℕ) (h : n < cfg0.N) (h1 : n % 64 = 63) (u : Fin 1) (j : Fin 4) (v : Fin 16384) :
    (outsAt0 m c n h).1 (ix3 u j v) = Recon.acc (img m c) (sinos m c) (mat m c) n j v := by
  cases n with
  | zero => exact absurd h1 (by decide)
  | succ n =>
    have h0 : ¬(n + 1) % 64 = 0 := by omega
    rw [out_last m c n h h0 h1, Payload.copy_apply, ← scratch_last m c n h h0 h1]
    exact scratch_eq m c (n + 1) h j v

end Cert.KernelIdeal.Accumulate

end
-- ==== Proof.Final.lean ====
/-
  The call's result array, and what the host makes of it.

  The call writes one block per half: after a half's last point, the half's finished running total.  Those two
  blocks tile the result array, so the array is known entry by entry.  The host then adds the two halves, transposes
  the sum back to voxels by columns, and multiplies by `img * eff`; by `Recon.acc_total` that is `Recon.update`.
-/
import proofs.«161346_j78348793414179_2_alg».proof.Proof.Accumulate
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accumulate

variable (m : (ℓ : Loc nD τ sig) → Buf (Elt Ideal) ℓ) (ρ : Dev nD → PrngReg)

/-- The two halves' finished totals, as the contents of the call's result array. -/
abbrev halves (c : Dev nD) : Buf (Elt Ideal) ((c : Thread nD τ).loc main_v2) :=
  fun i => Recon.acc (img m c) (sinos m c) (mat m c) (64 * (i 0).val + 63) (i 1) (i 2)

/-- What a half's last point writes back is that half's block of `halves`. -/
theorem flushed_eq (c : Dev nD) (t : Fin cfg0.N) (hf : (cfg0.win 3).flush t = true) :
    (dats m 0 c).flushed 3 t = ((cfg0.win 3).blk t).view.read (Elt Ideal) (halves m c) := by
  have h63 : t.val % 64 = 63 := (flush0_3 t).mp hf
  have hN : t.val < 128 := lt_of_lt_of_eq t.isLt (show cfg0.N = 128 from N_0)
  obtain ⟨-, -, -, -, -, -, e0, e1, e2⟩ := Blocks.index_facts t
  have hout : ((outsAt0 m c t.val t.isLt).1 : S1x4x16384.Idx → EReal)
      = fun y => Recon.acc (img m c) (sinos m c) (mat m c) t.val (y 1) (y 2) := by
    funext y
    rw [eq_ix3 y]
    exact out_eq m c t.val t.isLt h63 (y 0) (y 1) (y 2)
  show (cfg0.win 3).cut (grid0.coords t) ((dats m 0 c).after 3 t) = _
  rw [after0_3, hout]
  funext y
  show Recon.acc (img m c) (sinos m c) (mat m c) t.val (y 1) (y 2)
    = Recon.acc (img m c) (sinos m c) (mat m c) (64 * ((((cfg0.win 3).blk t).view.emb y) 0).val + 63)
        ((((cfg0.win 3).blk t).view.emb y) 1) ((((cfg0.win 3).blk t).view.emb y) 2)
  have hy0 : (y 0).val < 1 := (y 0).isLt
  have k0 : ((((cfg0.win 3).blk t).view.emb y) 0).val = t.val / 64 := by
    show win0_3.index t (0 : Fin 3) * 1 + 1 * (y 0).val = t.val / 64
    rw [e0]; omega
  have k1 : (((cfg0.win 3).blk t).view.emb y) 1 = y 1 := Fin.ext (by
    show win0_3.index t (1 : Fin 3) * 4 + 1 * (y 1).val = (y 1).val
    rw [e1]; omega)
  have k2 : (((cfg0.win 3).blk t).view.emb y) 2 = y 2 := Fin.ext (by
    show win0_3.index t (2 : Fin 3) * 16384 + 1 * (y 2).val = (y 2).val
    rw [e2]; omega)
  rw [k0, k1, k2, show 64 * (t.val / 64) + 63 = t.val from by omega]

/-- Every entry of the result array lies in the block its half's last point writes. -/
theorem cover (c : Dev nD) (i : S2x4x16384.Idx) :
    ∃ t : Fin cfg0.N, (cfg0.win 3).flush t = true ∧ i ∈ ((cfg0.win 3).blk t).view.set := by
  have hi0 : (i 0).val < 2 := (i 0).isLt
  have hi1 : (i 1).val < 4 := (i 1).isLt
  have hi2 : (i 2).val < 16384 := (i 2).isLt
  have hlt : 64 * (i 0).val + 63 < cfg0.N := by rw [show cfg0.N = 128 from N_0]; omega
  obtain ⟨-, -, -, -, -, -, e0, e1, e2⟩ := Blocks.index_facts ⟨64 * (i 0).val + 63, hlt⟩
  have e0' : win0_3.index ⟨64 * (i 0).val + 63, hlt⟩ (0 : Fin 3) = (64 * (i 0).val + 63) / 64 := e0
  refine ⟨⟨64 * (i 0).val + 63, hlt⟩, (flush0_3 _).mpr (by show (64 * (i 0).val + 63) % 64 = 63; omega), ?_⟩
  show i ∈ ((View.whole main_v2).slice (win0_3.rect ⟨64 * (i 0).val + 63, hlt⟩)).set
  rw [View.set_slice_whole, Rect.mem_set_unit]
  intro a
  match a with
  | ⟨0, _⟩ =>
    show win0_3.index ⟨64 * (i 0).val + 63, hlt⟩ (0 : Fin 3) * 1 ≤ (i 0).val ∧ (i 0).val < win0_3.index ⟨64 * (i 0).val + 63, hlt⟩ (0 : Fin 3) * 1 + 1
    rw [e0']; omega
  | ⟨1, _⟩ =>
    show win0_3.index ⟨64 * (i 0).val + 63, hlt⟩ (1 : Fin 3) * 4 ≤ (i 1).val ∧ (i 1).val < win0_3.index ⟨64 * (i 0).val + 63, hlt⟩ (1 : Fin 3) * 4 + 4
    rw [e1]; omega
  | ⟨2, _⟩ =>
    show win0_3.index ⟨64 * (i 0).val + 63, hlt⟩ (2 : Fin 3) * 16384 ≤ (i 2).val ∧ (i 2).val < win0_3.index ⟨64 * (i 0).val + 63, hlt⟩ (2 : Fin 3) * 16384 + 16384
    rw [e2]; omega

/-- So the result array ends holding the two halves' finished totals. -/
theorem result_array (c : Dev nD) : (dats m 0 c).arrAt 3 cfg0.N = halves m c :=
  (dats m 0 c).arrAt_eq_of_cover 3 (halves m c) (flushed_eq m c) (cover c)

/-- The host lines after the call, as one function of the two arguments they read and the call's result array:
    the two halves are sliced out, added, transposed back, and multiplied by the product of the two arguments. -/
def hostTail (a0 a1 : S16384x4.Idx → Ideal .f32) (p : S2x4x16384.Idx → Ideal .f32) : S16384x4.Idx → Ideal .f32 :=
  mulf (mulf a0 a1)
    (transpose S16384x4 [1, 0]
      (addf
        (shapeCast S4x16384 (extractStridedSlice S1x4x16384 ![0, 0, 0] p slices_S2x4x16384_S1x4x16384_0_0_0) shapeCasts_S1x4x16384_S4x16384)
        (shapeCast S4x16384 (extractStridedSlice S1x4x16384 ![1, 0, 0] p slices_S2x4x16384_S1x4x16384_1_0_0) shapeCasts_S1x4x16384_S4x16384))
      transposes_S4x16384_S16384x4_1_0)

/-- The host lines' result at voxel `v`, column `j`. -/
theorem hostTail_apply (a0 a1 : S16384x4.Idx → Ideal .f32) (p : S2x4x16384.Idx → Ideal .f32) (v : Fin 16384) (j : Fin 4) :
    hostTail a0 a1 p (ix2 v j)
      = (a0 (ix2 v j) * a1 (ix2 v j)) * (p (ix3 (0 : Fin 2) j v) + p (ix3 (1 : Fin 2) j v)) := by
  unfold hostTail
  rw [mulf_apply, mulf_apply,
    transpose_apply [1, 0] _ transposes_S4x16384_S16384x4_1_0 (ix2 v j) (ix2 j v) (fun b => match b with
      | ⟨0, _⟩ => rfl
      | ⟨1, _⟩ => rfl),
    addf_apply, shapeCast_1ab_ab_apply, shapeCast_1ab_ab_apply,
    extractStridedSlice_apply ![0, 0, 0] p slices_S2x4x16384_S1x4x16384_0_0_0 (ix3 (0 : Fin 1) j v) (ix3 (0 : Fin 2) j v) (fun a => match a with
      | ⟨0, _⟩ => rfl
      | ⟨1, _⟩ => (Nat.zero_add _).symm
      | ⟨2, _⟩ => (Nat.zero_add _).symm),
    extractStridedSlice_apply ![1, 0, 0] p slices_S2x4x16384_S1x4x16384_1_0_0 (ix3 (0 : Fin 1) j v) (ix3 (1 : Fin 2) j v) (fun a => match a with
      | ⟨0, _⟩ => rfl
      | ⟨1, _⟩ => (Nat.zero_add _).symm
      | ⟨2, _⟩ => (Nat.zero_add _).symm)]

/-- What the host lines after the call leave in the program's result: the update. -/
theorem tail_eq (c : Dev nD) :
    Pipeline.afterTail₀ cfgs (dats m) 0 (V0 m) [hostOps1] c main_v10
      = Recon.update (img m c) (m ((c : Thread nD τ).loc main_arg1)) (sinos m c) (mat m c) := by
  have ea0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have ea1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have ep : Pipeline.withArrays (cfgs 0).spec c (V0 m c) (fun w => (dats m 0 c).arrAt w (cfgs 0).N) (Proc.devRef .tc main_v2)
      = halves m c :=
    (Pipeline.withArrays_arr spec0 launch0.win.arr_inj c _ _ 3).trans (result_array m c)
  unfold Pipeline.afterTail₀
  show StableHlo.after hostOps1 _ (Proc.devRef .tc main_v10) = _
  after_results
  show hostTail
      (Pipeline.withArrays (cfgs 0).spec c (V0 m c) (fun w => (dats m 0 c).arrAt w (cfgs 0).N) (Proc.devRef .tc main_arg0))
      (Pipeline.withArrays (cfgs 0).spec c (V0 m c) (fun w => (dats m 0 c).arrAt w (cfgs 0).N) (Proc.devRef .tc main_arg1))
      (Pipeline.withArrays (cfgs 0).spec c (V0 m c) (fun w => (dats m 0 c).arrAt w (cfgs 0).N) (Proc.devRef .tc main_v2)) = _
  rw [ea0, ea1, ep]
  funext i
  obtain ⟨v, j, rfl⟩ : ∃ (v : Fin 16384) (j : Fin 4), i = ix2 v j := ⟨i 0, i 1, eq_ix2 i⟩
  rw [hostTail_apply]
  unfold Recon.update
  exact congrArg (img m c (ix2 v j) * m ((c : Thread nD τ).loc main_arg1) (ix2 v j) * ·)
    (Recon.acc_total (img m c) (sinos m c) (mat m c) j v)

/-- The program's run, read: its result is the update of its arguments, which end unchanged. -/
theorem run : θ_run defs (onTc (τ := τ) (main (F := Ideal))) ⟨m, fun _ => 0, ρ⟩ fun r => ∀ c : Dev nD,
      r.2.mem ((c.tc : Thread nD τ).loc main_v10)
        = Recon.update (img m c) (m ((c : Thread nD τ).loc main_arg1)) (sinos m c) (mat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c)))⟩)
    (run_main m ρ)

end Cert.KernelIdeal.Final

end
-- ==== Proof.RefUpdate.lean ====
/-
  The reference program computes `Recon.update`: a projection by the matrix, the ratio of the measurements to it,
  a back projection by the transposed matrix, and the product with `img * eff`, read entry by entry.
-/
import proofs.«161346_j78348793414179_2_alg».proof.Proof.Gen.ReferenceIdeal.Read
import proofs.«161346_j78348793414179_2_alg».proof.Proof.Spec

set_option maxRecDepth 16384

noncomputable section

open Idealize.ShloMosaic Idealize.ShloMosaic.TcCoe Idealize.SL.Sem Idealize.ShloMosaic.ValueIdx

namespace Cert.ReferenceIdeal.RefUpdate

open Cert.ReferenceIdeal Cert.ReferenceIdeal.Read

/-- The reference's last stage is the update of its four arguments. -/
theorem stage_eq (x0 x1 x2 : (⟨S16384x4, .f32⟩ : BufTy).Contents (Elt Ideal)) (x3 : (⟨S16384x16384, .f32⟩ : BufTy).Contents (Elt Ideal)) :
    val_main_v7 (F := Ideal) x0 x1 x2 x3 = Recon.update x0 x1 x2 x3 := by
  funext i
  rw [val_main_v7_apply, val_main_v6_apply, val_main_v5_apply]
  unfold Recon.update
  refine congrArg ((x0 i * x1 i) * ·) (Finset.sum_congr rfl fun k _ => ?_)
  rw [val_main_v4_apply, val_main_v3_apply, val_main_v2_apply, val_main_v0_apply, val_main_v1_apply, val_main_cst_apply]
  have e1 : idx_main_v4 (lidx_main_v5 i k) = ix2 k (i 0) := funext fun a => Fin.ext (by
    match a with | ⟨0, _⟩ => rfl | ⟨1, _⟩ => rfl)
  have e2 : ridx_main_v5 i k = ix2 k (i 1) := funext fun a => Fin.ext (by
    match a with | ⟨0, _⟩ => rfl | ⟨1, _⟩ => rfl)
  have e3 : ∀ k' : Fin 16384, lidx_main_v0 (ix2 k (i 1)) k' = ix2 k k' := fun k' => funext fun a => Fin.ext (by
    match a with | ⟨0, _⟩ => rfl | ⟨1, _⟩ => rfl)
  have e4 : ∀ k' : Fin 16384, ridx_main_v0 (ix2 k (i 1)) k' = ix2 k' (i 1) := fun k' => funext fun a => Fin.ext (by
    match a with | ⟨0, _⟩ => rfl | ⟨1, _⟩ => rfl)
  rw [e1, e2]
  simp only [e3, e4]
  unfold Recon.ratio
  simp only [Ideal.hostDivf_def, Ideal.addf_def, Ideal.ofBits_def]
  rfl

end Cert.ReferenceIdeal.RefUpdate

end
-- ==== Proof.lean ====
/-
  One multiplicative reconstruction step, computed two ways, gives one result over the extended reals.

  The reference projects the image by the system matrix, divides the measurements by the projection plus a small
  constant, back-projects that ratio by the transposed matrix and multiplies by `img * eff`.  The kernel sweeps the
  matrix once in 128 blocks of 128 detector rows: for each block it forms the block's projections, its ratios and its
  partial back projection, and adds that into a running total, one total for the first 64 blocks and one for the last
  64; the host adds the two totals, transposes, and multiplies by `img * eff`.

  Both are `Recon.update` of the four arguments (Proof/Spec.lean).  The two sides differ only in the grouping and
  order of a sum, in a leading `0 +`, and in the order of the factors of each product; over the extended reals addition
  is commutative and associative, zero is its unit and multiplication is commutative, so nothing here needs the inputs
  to be finite.  Changes of float format are the identity at this instance, and both sides add the same small constant.

  Modules: Spec (the mathematics), Pieces (what the body leaves at one point), Payload (its stores entry by entry),
  Blocks (the loaded blocks as entries of the arguments), Accumulate (the running total, by induction on the point),
  Final (the call's result array, the host lines after it, the run), RefUpdate (the reference is the update).
  The idealization rewrote nothing, so the kernel and its idealization are one text read at two instances.
-/
import proofs.«161346_j78348793414179_2_alg».proof.Defs
import proofs.«161346_j78348793414179_2_alg».proof.Proof.Gen.Kernel
import proofs.«161346_j78348793414179_2_alg».proof.Proof.Gen.Kernel.Skeleton
import proofs.«161346_j78348793414179_2_alg».proof.Proof.Gen.Kernel.Launch
import proofs.«161346_j78348793414179_2_alg».proof.Proof.Gen.Kernel.Points
import proofs.«161346_j78348793414179_2_alg».proof.Proof.Gen.Kernel.Frame
import proofs.«161346_j78348793414179_2_alg».proof.Proof.Gen.KernelIdeal
import proofs.«161346_j78348793414179_2_alg».proof.Proof.Gen.KernelIdeal.Skeleton
import proofs.«161346_j78348793414179_2_alg».proof.Proof.Gen.KernelIdeal.Launch
import proofs.«161346_j78348793414179_2_alg».proof.Proof.Gen.KernelIdeal.Points
import proofs.«161346_j78348793414179_2_alg».proof.Proof.Gen.KernelIdeal.Frame
import proofs.«161346_j78348793414179_2_alg».proof.Proof.Gen.ReferenceIdeal
import proofs.«161346_j78348793414179_2_alg».proof.Proof.Gen.ReferenceIdeal.Run
import proofs.«161346_j78348793414179_2_alg».proof.Proof.Gen.ReferenceIdeal.Read
import proofs.«161346_j78348793414179_2_alg».proof.Proof.Gen.Pre_finite_inputs
import proofs.«161346_j78348793414179_2_alg».proof.Proof.Final
import proofs.«161346_j78348793414179_2_alg».proof.Proof.RefUpdate
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at `Recon.update` of arguments that agree. -/
theorem algebraic : Cert.algebraic_KernelIdeal_ReferenceIdeal := by
  intro m ρ m' ρ' _ hagree
  refine ⟨fun c => Recon.update
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefUpdate.stage_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
